-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5000 : Shape := ⟨2, ![4096, 5000]⟩
abbrev S_ : Shape := ⟨0, ![]⟩

class Facts : Prop where
  bcast_S_S4096x5000 : S_.BroadcastsInDim S4096x5000 (![] : Fin 0 → Fin S4096x5000.rank)
  reducesTo_S4096x5000_S_d0_1 : S4096x5000.ReducesTo [0, 1] S_
  h_S_ : 0 < S_.numel

variable [Facts]

def fn {F : FTy → Type} [FloatOps F] (main_arg0 : FVec F S4096x5000 .f32) (main_arg1 : IVec S4096x5000 32) : IVec S_ 1 :=
  let main_v0 : FVec F S4096x5000 .f32 := Host.absf main_arg0
  let main_cst : FVec F S_ .f32 := constant S_ .f32 0x7F800000#32
  let main_v1 : FVec F S4096x5000 .f32 := broadcastInDim S4096x5000 ![] bcast_S_S4096x5000 main_cst
  let main_v2 : IVec S4096x5000 1 := cmpf .olt main_v0 main_v1
  let main_c : IVec S_ 1 := constantI S_ 1 1#1
  let main_v3 : IVec S_ 1 := (fun x v => Host.reduce IntOp.andi x v reducesTo_S4096x5000_S_d0_1 h_S_) main_v2 main_c
  main_v3
-- ==== Kernel.lean ====
abbrev S4096x5000 : Shape := ⟨2, ![4096, 5000]⟩
abbrev S4096x1 : Shape := ⟨2, ![4096, 1]⟩
abbrev S128x5000 : Shape := ⟨2, ![128, 5000]⟩
abbrev S128x1 : Shape := ⟨2, ![128, 1]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x5000, .f32⟩
  | .hbm, ⟨1, _⟩ => ⟨S4096x5000, .i32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x5000, .f32⟩
  | .local _ .vmem, ⟨1, _⟩ => ⟨S128x5000, .f32⟩
  | .local _ .vmem, ⟨2, _⟩ => ⟨S128x5000, .i32⟩
  | .local _ .vmem, ⟨3, _⟩ => ⟨S128x5000, .i32⟩
  | .local _ .vmem, ⟨4, _⟩ => ⟨S128x1, .f32⟩
  | .local _ .vmem, ⟨5, _⟩ => ⟨S128x1, .f32⟩
  | _, _ => ⟨S4096x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x5000_S128x5000_0_0 : ∀ a, (![0, 0] : Fin 2 → Nat) a + S128x5000.size a ≤ S128x5000.size a
  h_S128x5000 : 0 < S128x5000.numel
  reduces_S128x5000_S128 : S128x5000.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5000.size a ≤ S4096x5000.size a
  hwx0_0 : ∀ i : grid0.Coords, EltTy.bits .f32 = 32 ∨ (Rect.block (s := S4096x5000) S128x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5000.size a ≤ S4096x5000.size a
  hwx0_1 : ∀ i : grid0.Coords, EltTy.bits .i32 = 32 ∨ (Rect.block (s := S4096x5000) S128x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_arg0) S128x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x5000 : Shape := ⟨2, ![4096, 5000]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x5000, .f32⟩
  | .hbm, ⟨1, _⟩ => ⟨S4096x5000, .i32⟩
  | .hbm, ⟨2, _⟩ => ⟨S_, .i32⟩
  | .hbm, ⟨3, _⟩ => ⟨S4096x5000, .i32⟩
  | .hbm, ⟨4, _⟩ => ⟨S4096x5000, .i1⟩
  | .hbm, ⟨5, _⟩ => ⟨S4096x5000, .f32⟩
  | .hbm, ⟨6, _⟩ => ⟨S_, .i32⟩
  | .hbm, ⟨7, _⟩ => ⟨S4096x5000, .i32⟩
  | .hbm, ⟨8, _⟩ => ⟨S4096x5000, .i1⟩
  | .hbm, ⟨9, _⟩ => ⟨S4096x5000, .f32⟩
  | .hbm, ⟨10, _⟩ => ⟨S4096x5000, .f32⟩
  | .hbm, ⟨11, _⟩ => ⟨S4096x5000, .f32⟩
  | .hbm, ⟨12, _⟩ => ⟨S_, .f32⟩
  | .hbm, ⟨13, _⟩ => ⟨S4096, .f32⟩
  | .hbm, ⟨14, _⟩ => ⟨S4096x5000, .f32⟩
  | .hbm, ⟨15, _⟩ => ⟨S4096x5000, .f32⟩
  | .hbm, ⟨16, _⟩ => ⟨S4096x5000, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S4096x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4096x5000 : S_.BroadcastsInDim S4096x5000 (![] : Fin 0 → Fin S4096x5000.rank)
  reducesTo_S4096x5000_S4096_d1 : S4096x5000.ReducesTo [1] S4096
  h_S_ : 0 < S_.numel
  reducesTo_S4096_S_d0 : S4096.ReducesTo [0] S_

variable [Facts₀]

class Facts : Prop extends Facts₀ where

variable [Facts]
-- ==== Proof.LibMaskedSum.lean ====
/-
  General facts about masked sums and means on the extended reals, for kernels that mask by `select` against a
  reference that masks by a product with a comparison's bit:

  * `maskTerm k y e` — `e` where the word `y` equals `k`, zero elsewhere;
  * `cmpi_eq_one_iff` — an integer equality compare answers the bit 1 exactly when the words are equal;
  * `select_eq_maskTerm` — `select (y == k) e 0` is the masked term;
  * `mul_bit_eq_maskTerm` — `e * (the compare's bit read as a number)` is the masked term, for EVERY extended real
    `e` (`e * 1 = e`, `e * 0 = 0` hold at the infinities too), so no finiteness is needed;
  * `sum_column_rows`, `sum_vector_entries` — a sum over the indices of an [n, 1] column, or of an [n] vector, is the
    sum over `Fin n`;
  * `hostMean_column`, `hostMean_vector` — at the ideal instance the host's sum of an [n, 1] column over both axes (or
    of an [n] vector over its axis) from the zero word, divided by a scalar constant word `d`, is at the scalar's one
    index `(Σ_R entry R) / d`.
-/
import Idealize.ShloMosaic.PureOps.Ideal.Laws
import Idealize.ShloMosaic.Lib.ValueIdx

noncomputable section

namespace Cert.Lib

open Idealize.ShloMosaic Idealize.ShloMosaic.ValueIdx
open scoped BigOperators

/-! ## A masked term, in two spellings -/

/-- One term of a masked sum: `e` where the word `y` is `k`, zero elsewhere. -/
def maskTerm {w : Nat} (k y : BitVec w) (e : EReal) : EReal := if y = k then e else 0

/-- An integer equality compare answers the bit `1` exactly when the two words are equal. -/
theorem cmpi_eq_one_iff {w : Nat} (y k : BitVec w) : IntOp.cmpi .eq y k = 1#1 ↔ y = k := by
  have hb : ∀ b : Bool, BitVec.ofBool b = 1#1 ↔ b = true := fun b => by cases b <;> decide
  simp only [IntOp.cmpi, hb, beq_iff_eq]

/-- A select on the compare's bit between `e` and a zero is the masked term. -/
theorem select_eq_maskTerm {w : Nat} (k y : BitVec w) (e z : EReal) (hz : z = 0) :
    Scalar.select (IntOp.cmpi .eq y k) e z = maskTerm k y e := by
  unfold maskTerm
  by_cases h : y = k
  · rw [if_pos h, (cmpi_eq_one_iff y k).mpr h, select_one]
  · rw [if_neg h, eq_zero_of_ne_one (fun h1 => h ((cmpi_eq_one_iff y k).mp h1)), select_zero, hz]

/-- `e` times the compare's bit read as a number is the masked term: on the extended reals `e * 1 = e` and
    `e * 0 = 0` whatever `e` is. -/
theorem mul_bit_eq_maskTerm {w : Nat} (k y : BitVec w) (e : EReal) :
    e * (((IntOp.cmpi .eq y k).toNat : ℝ) : EReal) = maskTerm k y e := by
  unfold maskTerm
  by_cases h : y = k
  · rw [if_pos h, (cmpi_eq_one_iff y k).mpr h]
    simp
  · rw [if_neg h, eq_zero_of_ne_one (fun h1 => h ((cmpi_eq_one_iff y k).mp h1))]
    simp

/-! ## Sums over a column and over a vector, by rows -/

/-- A sum over the indices of an [n, 1] column is the sum over its rows. -/
theorem sum_column_rows {n : Nat} (f : (⟨2, ![n, 1]⟩ : Shape).Idx → EReal) :
    ∑ i, f i = ∑ R : Fin n, f (ix2 R (0 : Fin 1)) := by
  rw [sum_idx2]
  exact Finset.sum_congr rfl fun R _ => Fin.sum_univ_one _

/-- A rank-1 index is its one coordinate. -/
def vectorIdxEquiv {n : Nat} : (⟨1, ![n]⟩ : Shape).Idx ≃ Fin n where
  toFun i := i 0
  invFun a := ix1 a
  left_inv i := (eq_ix1 i).symm
  right_inv _ := rfl

/-- A sum over the indices of an [n] vector is the sum over its entries. -/
theorem sum_vector_entries {n : Nat} (f : (⟨1, ![n]⟩ : Shape).Idx → EReal) :
    ∑ i, f i = ∑ R : Fin n, f (ix1 R) := by
  rw [← Equiv.sum_comp (vectorIdxEquiv (n := n)).symm f]
  rfl

/-! ## The host's mean of a column and of a vector -/

/-- The sum of an [n, 1] column over both axes from the zero word, divided by the scalar constant word `d`, is the
    sum over the rows divided by what `d` denotes — at the scalar's one index. -/
theorem hostMean_column {n : Nat} (d : BitVec 32) (A : (⟨2, ![n, 1]⟩ : Shape).Idx → EReal)
    (h' : (⟨2, ![n, 1]⟩ : Shape).ReducesTo [0, 1] ⟨0, ![]⟩) (hu : 0 < (⟨0, ![]⟩ : Shape).numel) :
    Host.divf (F := Ideal) (φ := .f32) (Host.reduceAdd (F := Ideal) (φ := .f32) A (constant (F := Ideal) ⟨0, ![]⟩ .f32 0x00000000#32) h' hu)
        (constant (F := Ideal) ⟨0, ![]⟩ .f32 d)
      = fun _ => Ideal.div (∑ R : Fin n, A (ix2 R (0 : Fin 1))) (Ideal.ofBits .f32 d) := by
  funext i
  show Ideal.div (Ideal.hostReduceAdd h' A (Ideal.ofBits .f32 0x00000000#32) i) (Ideal.ofBits .f32 d) = _
  rw [Ideal.hostReduceAdd_total h' (fun b => b.elim0), Ideal.ofBits_zero_f32, zero_add, sum_column_rows]

/-- The same for an [n] vector summed over its one axis. -/
theorem hostMean_vector {n : Nat} (d : BitVec 32) (B : (⟨1, ![n]⟩ : Shape).Idx → EReal)
    (h' : (⟨1, ![n]⟩ : Shape).ReducesTo [0] ⟨0, ![]⟩) (hu : 0 < (⟨0, ![]⟩ : Shape).numel) :
    Host.divf (F := Ideal) (φ := .f32) (Host.reduceAdd (F := Ideal) (φ := .f32) B (constant (F := Ideal) ⟨0, ![]⟩ .f32 0x00000000#32) h' hu)
        (constant (F := Ideal) ⟨0, ![]⟩ .f32 d)
      = fun _ => Ideal.div (∑ R : Fin n, B (ix1 R)) (Ideal.ofBits .f32 d) := by
  funext i
  show Ideal.div (Ideal.hostReduceAdd h' B (Ideal.ofBits .f32 0x00000000#32) i) (Ideal.ofBits .f32 d) = _
  rw [Ideal.hostReduceAdd_total h' (fun b => b.elim0), Ideal.ofBits_zero_f32, zero_add, sum_vector_entries]

end Cert.Lib

end
-- ==== Proof.LossSpec.lean ====
/-
  The loss both programs compute, as ONE function of the logits `X` and the label words `Y` (both [4096, 5000])
  on the extended reals. For a row with logits `x` and labels `y`:

      neg = Σ_n [y n = 0] · e^{x n},     pos = Σ_n [y n = 1] · e^{-x n},     rowLoss = log (1 + neg · pos),

  and the loss is (Σ_r rowLoss r) / 4096, the divisor kept as the f32 word both programs print.
  A masked term is `Cert.Lib.maskTerm k y e` (LibMaskedSum): `e` where the label word is `k`, zero elsewhere.
-/
import proofs.«124144_j54975581389179_1_alg».proof.Proof.LibMaskedSum

noncomputable section

namespace Cert.Lspe

open Idealize.ShloMosaic Idealize.ShloMosaic.ValueIdx Cert.Lib
open scoped BigOperators

/-- The loss of one row from the row's logits and label words:
    `log (1 + (Σ_n [y n = 0] e^{x n}) · (Σ_n [y n = 1] e^{-x n}))`. -/
def rowLoss (x : Fin 5000 → EReal) (y : Fin 5000 → BitVec 32) : EReal :=
  Ideal.log1p ((∑ n : Fin 5000, maskTerm 0#32 (y n) (Ideal.exp (x n))) * (∑ n : Fin 5000, maskTerm 1#32 (y n) (Ideal.exp (-(x n)))))

/-- Row `R`'s loss, read off the whole arrays. -/
def rowLossAt (X : (⟨2, ![4096, 5000]⟩ : Shape).Idx → EReal) (Y : (⟨2, ![4096, 5000]⟩ : Shape).Idx → BitVec 32)
    (R : Fin 4096) : EReal :=
  rowLoss (fun n => X (ix2 R n)) (fun n => Y (ix2 R n))

/-- The [4096, 1] column of row losses: what the kernel's region leaves in its output array. -/
def perRow (X : (⟨2, ![4096, 5000]⟩ : Shape).Idx → EReal) (Y : (⟨2, ![4096, 5000]⟩ : Shape).Idx → BitVec 32) :
    (⟨2, ![4096, 1]⟩ : Shape).Idx → EReal :=
  fun i => rowLossAt X Y (i 0)

/-- The loss: the mean of the 4096 row losses, the divisor the f32 word `0x45800000` (4096). -/
def loss (X : (⟨2, ![4096, 5000]⟩ : Shape).Idx → EReal) (Y : (⟨2, ![4096, 5000]⟩ : Shape).Idx → BitVec 32) : EReal :=
  Ideal.div (∑ R : Fin 4096, rowLossAt X Y R) (Ideal.ofBits .f32 0x45800000#32)

end Cert.Lspe

end
-- ==== Proof.KernelRow.lean ====
/-
  What the kernel body stores, read at an entry: for a [128, 5000] block of logits `x0` and of label words `x1`,
  the stored [128, 1] column at row `p` is the row loss of row `p` of the two blocks (LossSpec's `rowLoss`).
  The steps: a sum over the lane axis recast as a column reads, at (p, ·), the sum over row p; each summand is a
  select on an equality compare between an exponential and a zero splat, which is a masked term (LibMaskedSum's `maskTerm`); the
  second exponential's argument is written `0 - x`, which is `-x` on the extended reals.
-/
import proofs.«124144_j54975581389179_1_alg».proof.Proof.Gen.KernelIdeal.Skeleton
import proofs.«124144_j54975581389179_1_alg».proof.Proof.LossSpec
import Idealize.ShloMosaic.Lib.Pipeline.Value

noncomputable section

namespace Cert.KernelIdeal.RowValue

open Idealize.ShloMosaic Idealize.ShloMosaic.ValueIdx Cert.KernelIdeal Cert.KernelIdeal.Gen
open scoped BigOperators

/-- A [128, 5000] vector summed over its lane axis (from the zero word) and recast as a [128, 1] column reads, at
    row `p`, the sum of row `p`: the recast keeps the row-major position, and the reduction at `p` is the sum over the
    lane coordinate. -/
theorem colSum_apply (src : FVec Ideal S128x5000 .f32) (h : S128x5000.Reduces [1] S128) (hφ : FKind.Formats .f32)
    (hacc : (0x00000000#32 : BitVec FTy.f32.bits) = FKind.add.neutral .f32 hφ) (hc : S128.ShapeCasts S128x1)
    (p : Fin 128) (u : Fin 1) :
    shapeCast S128x1 (multiReduction .add [1] S128 src 0x00000000#32 h hφ hacc) hc (ix2 p u)
      = ∑ n : Fin 5000, src (ix2 p n) := by
  refine (shapeCast_apply _ hc (ix2 p u) (ix1 p) ?_).trans ?_
  · rw [Shape.rowMajor_val_one, Shape.rowMajor_val_two]
    show p.val = p.val * 1 + u.val
    omega
  · refine (Ideal.multiReduction_add_single src 0x00000000#32 h hφ hacc (ix1 p)).trans ?_
    refine Finset.sum_congr rfl fun n _ => congrArg src ?_
    exact funext fun a => Fin.ext (by match a with | ⟨0, _⟩ => rfl | ⟨1, _⟩ => rfl)

/-- THE STORED COLUMN AT A ROW: the body's payload at (p, ·) is the row loss of row `p` of the two loaded blocks. -/
theorem pay_apply (x0 : Vec Ideal S128x5000 .f32) (x1 : Vec Ideal S128x5000 .i32) (p : Fin 128) (u : Fin 1) :
    k0_pay1 (F := Ideal) x0 x1 (ix2 p u) = Cert.Lspe.rowLoss (fun n => x0 (ix2 p n)) (fun n => x1 (ix2 p n)) := by
  unfold k0_pay1 Cert.Lspe.rowLoss
  show Ideal.log1p (_ * _) = Ideal.log1p (_ * _)
  refine congrArg Ideal.log1p (congrArg₂ (· * ·) ?_ ?_)
  · refine (colSum_apply _ _ _ _ _ p u).trans (Finset.sum_congr rfl fun n _ => ?_)
    exact Cert.Lib.select_eq_maskTerm 0#32 (x1 (ix2 p n)) (Ideal.exp (x0 (ix2 p n))) _ Ideal.ofBits_zero_f32
  · refine (colSum_apply _ _ _ _ _ p u).trans (Finset.sum_congr rfl fun n _ => ?_)
    refine (Cert.Lib.select_eq_maskTerm 1#32 (x1 (ix2 p n)) (Ideal.exp (Ideal.ofBits .f32 0x00000000#32 - x0 (ix2 p n))) _
      Ideal.ofBits_zero_f32).trans ?_
    rw [Ideal.ofBits_zero_f32, zero_sub]

end Cert.KernelIdeal.RowValue

end
-- ==== Proof.KernelArray.lean ====
/-
  From blocks to the array. Grid point `t` (of 32) stages rows `128 t … 128 t + 127` of the logits and of the labels
  (all 5000 lanes) and writes back rows `128 t … 128 t + 127` of the [4096, 1] output. What it writes back is the
  stored column of KernelRow, so at block row `p` it is the row loss of row `128 t + p` of the argument arrays: block
  `t` of the column `perRow` of LossSpec. The 32 blocks cover the 4096 rows (row `r` lies in block `r / 128`), so the
  output array ends holding `perRow` of the arguments.
-/
import proofs.«124144_j54975581389179_1_alg».proof.Proof.Gen.KernelIdeal.Frame
import proofs.«124144_j54975581389179_1_alg».proof.Proof.KernelRow
import Idealize.ShloMosaic.Lib.Pipeline.Value

noncomputable section

namespace Cert.KernelIdeal.ArrayValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The three windows move together: at point `t` each block's index is (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits block at point `t`, at (p, n), is the logits array at (128 t + p, n). -/
theorem logits_block (c : Dev nD) (t : Fin cfg0.N) (p : Fin 128) (n : Fin 5000) (R : Fin 4096)
    (hR : R.val = 128 * t.val + p.val) :
    (iblk m c 0 t : Vec Ideal S128x5000 .f32) (ix2 p n) = (V m c main_arg0 : S4096x5000.Idx → EReal) (ix2 R n) := by
  obtain ⟨e0, e1, -⟩ := block_index t
  unfold iblk
  rw [View.read_apply]
  show V m c main_arg0 _ = V m c main_arg0 _
  refine congrArg (V m c main_arg0) ?_
  funext a
  apply Fin.ext
  match a with
  | ⟨0, _⟩ => show win0_0.index t (0 : Fin 2) * 128 + 1 * p.val = R.val; rw [e0, hR]; omega
  | ⟨1, _⟩ => show win0_0.index t (1 : Fin 2) * 5000 + 1 * n.val = n.val; rw [e1]; omega

/-- The labels block at point `t`, at (p, n), is the labels array at (128 t + p, n). -/
theorem labels_block (c : Dev nD) (t : Fin cfg0.N) (p : Fin 128) (n : Fin 5000) (R : Fin 4096)
    (hR : R.val = 128 * t.val + p.val) :
    (iblk m c 1 t : Vec Ideal S128x5000 .i32) (ix2 p n) = (V m c main_arg1 : S4096x5000.Idx → BitVec 32) (ix2 R n) := by
  obtain ⟨-, -, e2, e3, -⟩ := block_index t
  unfold iblk
  rw [View.read_apply]
  show V m c main_arg1 _ = V m c main_arg1 _
  refine congrArg (V m c main_arg1) ?_
  funext a
  apply Fin.ext
  match a with
  | ⟨0, _⟩ => show win0_1.index t (0 : Fin 2) * 128 + 1 * p.val = R.val; rw [e2, hR]; omega
  | ⟨1, _⟩ => show win0_1.index t (1 : Fin 2) * 5000 + 1 * n.val = n.val; rw [e3]; omega

/-- The stored column of two blocks that are rows of whole arrays `X`, `Y`: at a block entry `y` whose row is row
    `i 0` of the arrays (the hypotheses say so, lane by lane) it is `perRow X Y` at `i`. -/
theorem stored_eq (X : (⟨2, ![4096, 5000]⟩ : Shape).Idx → EReal) (Y : (⟨2, ![4096, 5000]⟩ : Shape).Idx → BitVec 32)
    (x0 : Vec Ideal S128x5000 .f32) (x1 : Vec Ideal S128x5000 .i32) (y : S128x1.Idx) (i : S4096x1.Idx)
    (h0 : ∀ (p : Fin 128) (R : Fin 4096) (n : Fin 5000), p.val = (y 0).val → R.val = (i 0).val → x0 (ix2 p n) = X (ix2 R n))
    (h1 : ∀ (p : Fin 128) (R : Fin 4096) (n : Fin 5000), p.val = (y 0).val → R.val = (i 0).val → x1 (ix2 p n) = Y (ix2 R n)) :
    k0_pay1 (F := Ideal) x0 x1 y = Cert.Lspe.perRow X Y i := by
  obtain ⟨p, u, rfl⟩ : ∃ (p : Fin 128) (u : Fin 1), y = ix2 p u := ⟨y 0, y 1, eq_ix2 y⟩
  obtain ⟨R, v, rfl⟩ : ∃ (R : Fin 4096) (v : Fin 1), i = ix2 R v := ⟨i 0, i 1, eq_ix2 i⟩
  rw [Cert.KernelIdeal.RowValue.pay_apply]
  exact congrArg₂ Cert.Lspe.rowLoss (funext fun n => h0 p R n rfl rfl) (funext fun n => h1 p R n rfl rfl)

/-- WHAT POINT `t` WRITES BACK is block `t` of `perRow` of the argument arrays as the region finds them. -/
theorem flushed_eq (c : Dev nD) (t : Fin cfg0.N) :
    (dats m 0 c).flushed 2 t
      = ((cfg0.win 2).blk t).view.read (Elt Ideal) (Cert.Lspe.perRow (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S128x5000) zero_offsets]
  obtain ⟨-, -, -, -, e4, e5⟩ := block_index t
  funext j
  rw [View.read_apply]
  refine stored_eq (V m c main_arg0) (V m c main_arg1) (iblk m c 0 t) (iblk m c 1 t) _ _ ?_ ?_
  · intro p R n hp hR
    refine logits_block m c t p n R ?_
    have hr : (((cfg0.win 2).blk t).view.emb j (0 : Fin 2)).val = win0_2.index t (0 : Fin 2) * 128 + 1 * (j 0).val := rfl
    have hq : (((cfg0.win 2).xinj (grid0.coords t) j) (0 : Fin 2)).val = (j 0).val := rfl
    rw [hR, hr, hp, hq, e4]; omega
  · intro p R n hp hR
    refine labels_block m c t p n R ?_
    have hr : (((cfg0.win 2).blk t).view.emb j (0 : Fin 2)).val = win0_2.index t (0 : Fin 2) * 128 + 1 * (j 0).val := rfl
    have hq : (((cfg0.win 2).xinj (grid0.coords t) j) (0 : Fin 2)).val = (j 0).val := rfl
    rw [hR, hr, hp, hq, e4]; omega

/-- An index of the output array is in point `t`'s block iff each coordinate is in the block's range on its axis. -/
theorem mem_block (t : Fin cfg0.N) (i : S4096x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0).slice (win0_2.rect t)).set ↔ _
  rw [View.set_slice_whole, Rect.mem_set_unit]
  exact Iff.rfl

/-- Every row is in some point's block: row `r` in block `r / 128`. -/
theorem rows_covered (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = (i 0).val / 128 :=
    ⟨⟨(i 0).val / 128, (by omega : (i 0).val / 128 < 32).trans_eq N_0.symm⟩, rfl⟩
  obtain ⟨-, -, -, -, e4, e5⟩ := block_index t
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    rw [e4, ht]; omega
  | ⟨1, _⟩ =>
    show win0_2.index t (1 : Fin 2) * 1 ≤ (i 1).val ∧ (i 1).val < win0_2.index t (1 : Fin 2) * 1 + 1
    rw [e5]; omega

/-- THE OUTPUT ARRAY after the region: the column of row losses of the argument arrays. -/
theorem final (c : Dev nD) :
    (dats m 0 c).arrAt 2 cfg0.N
      = Cert.Lspe.perRow (m ((c : Thread nD τ).loc main_arg0)) (m ((c : Thread nD τ).loc main_arg1)) :=
  (dats m 0 c).arrAt_eq_of_cover 2 (Cert.Lspe.perRow (V m c main_arg0) (V m c main_arg1))
    (fun t _ => flushed_eq m c t) rows_covered

end Cert.KernelIdeal.ArrayValue

end
-- ==== Proof.KernelRun.lean ====
/-
  The kernel program's run, read: the host lines after the region take the mean of the region's [4096, 1] output
  (its sum over both axes from zero, over the word for 4096), the region leaves that output at the column of row
  losses of the arguments (KernelArray), so the program's scalar result is the loss of LossSpec, and the arguments
  end unchanged.
-/
import proofs.«124144_j54975581389179_1_alg».proof.Proof.Gen.KernelIdeal.Frame
import proofs.«124144_j54975581389179_1_alg».proof.Proof.KernelArray
import Idealize.ShloMosaic.Lib.StableHlo.Run

noncomputable section

namespace Cert.KernelIdeal.RunValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The result buffer after the lines that follow the region: the mean of the column the region left, which is the
    loss of the argument arrays. -/
theorem tail_eq (c : Dev nD) :
    Pipeline.afterTail₀ cfgs (dats m) 0 (V0 m) [hostOps1] c main_v2
      = fun _ => Cert.Lspe.loss (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = Cert.Lspe.perRow (m ((c : Thread nD τ).loc main_arg0)) (m ((c : Thread nD τ).loc main_arg1)) :=
    (Pipeline.withArrays_arr spec0 launch0.win.arr_inj c _ _ 2).trans (Cert.KernelIdeal.ArrayValue.final m c)
  rw [hA]
  exact Cert.Lib.hostMean_column 0x45800000#32 _ _ _

/-- THE RUN: every weakly fair execution terminates with the scalar result at the loss of the argument arrays and the
    arguments unchanged. -/
theorem run : θ_run defs (onTc (τ := τ) (main (F := Ideal))) ⟨m, fun _ => 0, ρ⟩ fun r => ∀ c : Dev nD,
      r.2.mem ((c.tc : Thread nD τ).loc main_v2)
        = (fun _ => Cert.Lspe.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.RunValue

end
-- ==== Proof.RefValue.lean ====
/-
  The reference's result is the loss of LossSpec. Stage by stage: a masked product `e^{x} · [y = k]` at an entry is
  a masked term (LibMaskedSum's `maskTerm`); a row's two host sums from zero are the two masked sums; their product under
  log (1 + ·) is the row loss; and the host's mean of the 4096 row losses is the loss.
-/
import proofs.«124144_j54975581389179_1_alg».proof.Proof.Gen.ReferenceIdeal.Read
import proofs.«124144_j54975581389179_1_alg».proof.Proof.LossSpec

noncomputable section

namespace Cert.ReferenceIdeal.RefValue

open Idealize.ShloMosaic Idealize.ShloMosaic.ValueIdx Cert.ReferenceIdeal Cert.ReferenceIdeal.Gen Cert.ReferenceIdeal.Read
open scoped BigOperators

/-- The first masked product at an entry: `e^{x} · [y = 0]`. -/
theorem negTerm_apply (x0 : (⟨S4096x5000, .f32⟩ : BufTy).Contents (Elt Ideal)) (x1 : (⟨S4096x5000, .i32⟩ : BufTy).Contents (Elt Ideal))
    (i : S4096x5000.Idx) :
    val_main_v7 (F := Ideal) x0 x1 i = Cert.Lib.maskTerm 0#32 (x1 i) (Ideal.exp (x0 i)) := by
  rw [val_main_v7_apply, val_main_v6_apply, val_main_v5_apply, val_main_v4_apply, val_main_v3_apply, val_main_c_0_apply]
  exact Cert.Lib.mul_bit_eq_maskTerm 0#32 (x1 i) (Ideal.exp (x0 i))

/-- The second masked product at an entry: `e^{-x} · [y = 1]`. -/
theorem posTerm_apply (x0 : (⟨S4096x5000, .f32⟩ : BufTy).Contents (Elt Ideal)) (x1 : (⟨S4096x5000, .i32⟩ : BufTy).Contents (Elt Ideal))
    (i : S4096x5000.Idx) :
    val_main_v11 (F := Ideal) x0 x1 i = Cert.Lib.maskTerm 1#32 (x1 i) (Ideal.exp (-(x0 i))) := by
  rw [val_main_v11_apply, val_main_v10_apply, val_main_v9_apply, val_main_v2_apply, val_main_v1_apply, val_main_v0_apply,
    val_main_c_apply]
  exact Cert.Lib.mul_bit_eq_maskTerm 1#32 (x1 i) (Ideal.exp (-(x0 i)))

/-- The index the host sums read at row `R` and lane `n` is (R, n). -/
theorem idx_row (R : Fin 4096) (n : Fin 5000) : idx_main_v8 (ix1 R) n = ix2 R n :=
  funext fun a => Fin.ext (by match a with | ⟨0, _⟩ => rfl | ⟨1, _⟩ => rfl)
theorem idx_row' (R : Fin 4096) (n : Fin 5000) : idx_main_v12 (ix1 R) n = ix2 R n :=
  funext fun a => Fin.ext (by match a with | ⟨0, _⟩ => rfl | ⟨1, _⟩ => rfl)

/-- Row `R` of the log (1 + ·) stage is the row loss. -/
theorem rowStage_apply (x0 : (⟨S4096x5000, .f32⟩ : BufTy).Contents (Elt Ideal)) (x1 : (⟨S4096x5000, .i32⟩ : BufTy).Contents (Elt Ideal))
    (R : Fin 4096) :
    val_main_v14 (F := Ideal) x0 x1 (ix1 R) = Cert.Lspe.rowLossAt x0 x1 R := by
  rw [val_main_v14_apply, val_main_v13_apply, val_main_v8_apply, val_main_v12_apply, val_main_cst_apply, val_main_cst_1_apply]
  unfold Cert.Lspe.rowLossAt Cert.Lspe.rowLoss
  show Ideal.log1p ((Ideal.ofBits .f32 0x00000000#32 + _) * (Ideal.ofBits .f32 0x00000000#32 + _)) = Ideal.log1p (_ * _)
  rw [Ideal.ofBits_zero_f32, zero_add, zero_add]
  refine congrArg Ideal.log1p (congrArg₂ (· * ·) (Finset.sum_congr rfl fun n _ => ?_) (Finset.sum_congr rfl fun n _ => ?_))
  · rw [negTerm_apply, idx_row]
  · rw [posTerm_apply, idx_row']

/-- THE REFERENCE'S RESULT is the loss, at the scalar's one index. -/
theorem result_eq (x0 : (⟨S4096x5000, .f32⟩ : BufTy).Contents (Elt Ideal)) (x1 : (⟨S4096x5000, .i32⟩ : BufTy).Contents (Elt Ideal)) :
    val_main_v16 (F := Ideal) x0 x1 = fun _ => Cert.Lspe.loss x0 x1 := by
  refine (Cert.Lib.hostMean_vector 0x45800000#32 (val_main_v14 (F := Ideal) x0 x1) reducesTo_S4096_S_d0 h_S_).trans ?_
  funext _
  unfold Cert.Lspe.loss
  exact congrArg (Ideal.div · _) (Finset.sum_congr rfl fun R _ => rowStage_apply x0 x1 R)

end Cert.ReferenceIdeal.RefValue

end
-- ==== Proof.lean ====
/- The proof of `Cert.Claim` (proofs.«124144_j54975581389179_1_alg».proof.Defs).

   Both programs compute, from logits `x` and label words `y` of shape [4096, 5000], the mean over the 4096 rows of
       log (1 + (Σ_n [y = 0] e^{x}) · (Σ_n [y = 1] e^{-x}))
   (Proof/LossSpec.lean states it as one function, `Cert.Lspe.loss`). The kernel takes 128 rows per grid point, masks
   by a select against zero, writes `e^{-x}` as `e^{0 - x}`, leaves a [4096, 1] column of row losses and lets the host
   average it; the reference masks by a product with the comparison's bit, sums on the host and averages a [4096]
   vector. On the extended reals `e · 1 = e`, `e · 0 = 0` and `0 - x = -x` hold for every value, and the two means
   are the same sum over the rows, so the two results are one number with no appeal to the precondition.

   The modules: Proof/LibMaskedSum.lean (a masked term in the two spellings; a column's and a vector's host mean as a sum
   over rows), Proof/KernelRow.lean (what the body stores, at a row), Proof/KernelArray.lean (the 32 blocks cover the
   output array, which ends at the column of row losses), Proof/KernelRun.lean (the host's mean after the region: the
   kernel program's run with its result named), Proof/RefValue.lean (the reference's result is the same loss). The
   three frames are the generated ones (the reference's is its run with the result dropped); the idealization
   rewrote nothing, so `preserves` is `True`. -/
import proofs.«124144_j54975581389179_1_alg».proof.Defs
import proofs.«124144_j54975581389179_1_alg».proof.Proof.Gen.Kernel
import proofs.«124144_j54975581389179_1_alg».proof.Proof.Gen.Kernel.Skeleton
import proofs.«124144_j54975581389179_1_alg».proof.Proof.Gen.Kernel.Launch
import proofs.«124144_j54975581389179_1_alg».proof.Proof.Gen.Kernel.Points
import proofs.«124144_j54975581389179_1_alg».proof.Proof.Gen.Kernel.Frame
import proofs.«124144_j54975581389179_1_alg».proof.Proof.Gen.KernelIdeal
import proofs.«124144_j54975581389179_1_alg».proof.Proof.Gen.KernelIdeal.Skeleton
import proofs.«124144_j54975581389179_1_alg».proof.Proof.Gen.KernelIdeal.Launch
import proofs.«124144_j54975581389179_1_alg».proof.Proof.Gen.KernelIdeal.Points
import proofs.«124144_j54975581389179_1_alg».proof.Proof.Gen.KernelIdeal.Frame
import proofs.«124144_j54975581389179_1_alg».proof.Proof.Gen.ReferenceIdeal
import proofs.«124144_j54975581389179_1_alg».proof.Proof.Gen.ReferenceIdeal.Run
import proofs.«124144_j54975581389179_1_alg».proof.Proof.Gen.ReferenceIdeal.Read
import proofs.«124144_j54975581389179_1_alg».proof.Proof.Gen.Pre_finite_inputs
import proofs.«124144_j54975581389179_1_alg».proof.Proof.KernelRun
import proofs.«124144_j54975581389179_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel program's scalar result is the loss of its argument arrays (KernelRun) and the
    reference's is the loss of its own (RefValue); the arguments agree, so the results are equal. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
